-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16x16x1024 : Shape := ⟨4, ![128, 16, 16, 1024]⟩
abbrev S128x32x256 : Shape := ⟨3, ![128, 32, 256]⟩
abbrev S256x256 : Shape := ⟨2, ![256, 256]⟩
abbrev S256 : Shape := ⟨1, ![256]⟩
abbrev S_ : Shape := ⟨0, ![]⟩

class Facts : Prop where
  bcast_S_S128x16x16x1024 : S_.BroadcastsInDim S128x16x16x1024 (![] : Fin 0 → Fin S128x16x16x1024.rank)
  reducesTo_S128x16x16x1024_S_d0_1_2_3 : S128x16x16x1024.ReducesTo [0, 1, 2, 3] S_
  h_S_ : 0 < S_.numel
  bcast_S_S128x32x256 : S_.BroadcastsInDim S128x32x256 (![] : Fin 0 → Fin S128x32x256.rank)
  reducesTo_S128x32x256_S_d0_1_2 : S128x32x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S128x16x16x1024 .f32) (main_arg1 : FVec F S128x32x256 .f32) (main_arg2 : FVec F S256x256 .f32) (main_arg3 : FVec F S256 .f32) : IVec S_ 1 :=
  let main_v0 : FVec F S128x16x16x1024 .f32 := Host.absf main_arg0
  let main_cst : FVec F S_ .f32 := constant S_ .f32 0x7F800000#32
  let main_v1 : FVec F S128x16x16x1024 .f32 := broadcastInDim S128x16x16x1024 ![] bcast_S_S128x16x16x1024 main_cst
  let main_v2 : IVec S128x16x16x1024 1 := cmpf .olt main_v0 main_v1
  let main_c : IVec S_ 1 := constantI S_ 1 1#1
  let main_v3 : IVec S_ 1 := (fun x v => Host.reduce IntOp.andi x v reducesTo_S128x16x16x1024_S_d0_1_2_3 h_S_) main_v2 main_c
  let main_v4 : FVec F S128x32x256 .f32 := Host.absf main_arg1
  let main_cst_0 : FVec F S_ .f32 := constant S_ .f32 0x7F800000#32
  let main_v5 : FVec F S128x32x256 .f32 := broadcastInDim S128x32x256 ![] bcast_S_S128x32x256 main_cst_0
  let main_v6 : IVec S128x32x256 1 := cmpf .olt main_v4 main_v5
  let main_c_1 : IVec S_ 1 := constantI S_ 1 1#1
  let main_v7 : IVec S_ 1 := (fun x v => Host.reduce IntOp.andi x v reducesTo_S128x32x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S128x16x16x1024 : Shape := ⟨4, ![128, 16, 16, 1024]⟩
abbrev S128x32x256 : Shape := ⟨3, ![128, 32, 256]⟩
abbrev S256x256 : Shape := ⟨2, ![256, 256]⟩
abbrev S256 : Shape := ⟨1, ![256]⟩
abbrev S128x256x1024 : Shape := ⟨3, ![128, 256, 1024]⟩
abbrev S128x1024x32 : Shape := ⟨3, ![128, 1024, 32]⟩
abbrev S1x32x256 : Shape := ⟨3, ![1, 32, 256]⟩
abbrev S1x256x1024 : Shape := ⟨3, ![1, 256, 1024]⟩
abbrev S1x1024x32 : Shape := ⟨3, ![1, 1024, 32]⟩
abbrev S32x256 : Shape := ⟨2, ![32, 256]⟩
abbrev S256x1024 : Shape := ⟨2, ![256, 1024]⟩
abbrev S1x256 : Shape := ⟨2, ![1, 256]⟩
abbrev S1024x32 : Shape := ⟨2, ![1024, 32]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S128x16x16x1024, .f32⟩
  | .hbm, ⟨1, _⟩ => ⟨S128x32x256, .f32⟩
  | .hbm, ⟨2, _⟩ => ⟨S256x256, .f32⟩
  | .hbm, ⟨3, _⟩ => ⟨S256, .f32⟩
  | .hbm, ⟨4, _⟩ => ⟨S128x256x1024, .f32⟩
  | .hbm, ⟨5, _⟩ => ⟨S128x256x1024, .f32⟩
  | .hbm, ⟨6, _⟩ => ⟨S128x1024x32, .f32⟩
  | .hbm, ⟨7, _⟩ => ⟨S128x16x16x1024, .f32⟩
  | .local _ .vmem, ⟨0, _⟩ => ⟨S1x32x256, .f32⟩
  | .local _ .vmem, ⟨1, _⟩ => ⟨S1x32x256, .f32⟩
  | .local _ .vmem, ⟨2, _⟩ => ⟨S256x256, .f32⟩
  | .local _ .vmem, ⟨3, _⟩ => ⟨S256, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x32, .f32⟩
  | .local _ .vmem, ⟨9, _⟩ => ⟨S1x1024x32, .f32⟩
  | _, _ => ⟨S128x16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x16x16x1024_S128x256x1024 : S128x16x16x1024.ShapeCasts S128x256x1024
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  shapeCasts_S256_S1x256 : S256.ShapeCasts S1x256
  broadcasts_S1x256_S32x256 : S1x256.Broadcasts S32x256
  reduces_S1024x32_S1024 : S1024x32.Reduces [1] S1024
  shapeCasts_S1024_S1024x1 : S1024.ShapeCasts S1024x1
  broadcasts_S1024x1_S1024x32 : S1024x1.Broadcasts S1024x32
  shapeCasts_S256x1024_S1x256x1024 : S256x1024.ShapeCasts S1x256x1024
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  shapeCasts_S128x256x1024_S128x16x16x1024 : S128x256x1024.ShapeCasts S128x16x16x1024
  dot_S32x256_S256x256_S32x256_1_0_0_1_n_n_wf : DotDims.WF S32x256 S256x256 S32x256 [1] [0] [0] [1] [] []
  dot_S256x1024_S32x256_S1024x32_0_1_1_0_n_n_wf : DotDims.WF S256x1024 S32x256 S1024x32 [0] [1] [1] [0] [] []
  dot_S32x256_S1024x32_S256x1024_0_1_1_0_n_n_wf : DotDims.WF S32x256 S1024x32 S256x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S128x32x256.size a
  hwx0_0 : ∀ i : grid0.Coords, EltTy.bits .f32 = 32 ∨ (Rect.block (s := S128x32x256) S1x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S128x256x1024.size a
  hwx0_3 : ∀ i : grid0.Coords, EltTy.bits .f32 = 32 ∨ (Rect.block (s := S128x256x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S128x256x1024.size a
  hwx0_4 : ∀ i : grid0.Coords, EltTy.bits .f32 = 32 ∨ (Rect.block (s := S128x256x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x32.size a ≤ S128x1024x32.size a
  hwx0_5 : ∀ i : grid0.Coords, EltTy.bits .f32 = 32 ∨ (Rect.block (s := S128x1024x32) S1x1024x32.size (cc0_transform_5 i) (hinb0_5 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S256x1024_S32x256_S1024x32_0_1_1_0_n_n : DotDims S256x1024 S32x256 S1024x32 where
  lhsContracting := [0]
  rhsContracting := [1]
  lhsNonContracting := [1]
  rhsNonContracting := [0]
  lhsBatch := []
  rhsBatch := []
  wf := dot_S256x1024_S32x256_S1024x32_0_1_1_0_n_n_wf
def dot_S32x256_S1024x32_S256x1024_0_1_1_0_n_n : DotDims S32x256 S1024x32 S256x1024 where
  lhsContracting := [0]
  rhsContracting := [1]
  lhsNonContracting := [1]
  rhsNonContracting := [0]
  lhsBatch := []
  rhsBatch := []
  wf := dot_S32x256_S1024x32_S256x1024_0_1_1_0_n_n_wf

abbrev win0_0 : Pipeline.Window sig grid0 :=
  Pipeline.Window.ofSpec (Memref.whole main_arg1) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x16x16x1024 : Shape := ⟨4, ![128, 16, 16, 1024]⟩
abbrev S128x32x256 : Shape := ⟨3, ![128, 32, 256]⟩
abbrev S256x256 : Shape := ⟨2, ![256, 256]⟩
abbrev S256 : Shape := ⟨1, ![256]⟩
abbrev S1x1x256 : Shape := ⟨3, ![1, 1, 256]⟩
abbrev S128x256x1024 : Shape := ⟨3, ![128, 256, 1024]⟩
abbrev S128x1024x32 : Shape := ⟨3, ![128, 1024, 32]⟩
abbrev S_ : Shape := ⟨0, ![]⟩
abbrev S128x1024 : Shape := ⟨2, ![128, 1024]⟩
abbrev S128x1024x1 : Shape := ⟨3, ![128, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S128x16x16x1024, .f32⟩
  | .hbm, ⟨1, _⟩ => ⟨S128x32x256, .f32⟩
  | .hbm, ⟨2, _⟩ => ⟨S256x256, .f32⟩
  | .hbm, ⟨3, _⟩ => ⟨S256, .f32⟩
  | .hbm, ⟨4, _⟩ => ⟨S128x32x256, .f32⟩
  | .hbm, ⟨5, _⟩ => ⟨S1x1x256, .f32⟩
  | .hbm, ⟨6, _⟩ => ⟨S128x32x256, .f32⟩
  | .hbm, ⟨7, _⟩ => ⟨S128x32x256, .f32⟩
  | .hbm, ⟨8, _⟩ => ⟨S128x256x1024, .f32⟩
  | .hbm, ⟨9, _⟩ => ⟨S128x1024x32, .f32⟩
  | .hbm, ⟨10, _⟩ => ⟨S_, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024x1, .f32⟩
  | .hbm, ⟨16, _⟩ => ⟨S128x1024x32, .f32⟩
  | .hbm, ⟨17, _⟩ => ⟨S128x1024x32, .f32⟩
  | .hbm, ⟨18, _⟩ => ⟨S128x1024x32, .f32⟩
  | .hbm, ⟨19, _⟩ => ⟨S_, .f32⟩
  | .hbm, ⟨20, _⟩ => ⟨S128x1024, .f32⟩
  | .hbm, ⟨21, _⟩ => ⟨S128x1024x1, .f32⟩
  | .hbm, ⟨22, _⟩ => ⟨S128x1024x32, .f32⟩
  | .hbm, ⟨23, _⟩ => ⟨S128x1024x32, .f32⟩
  | .hbm, ⟨24, _⟩ => ⟨S128x256x1024, .f32⟩
  | .hbm, ⟨25, _⟩ => ⟨S128x16x16x1024, .f32⟩
  | _, _ => ⟨S128x16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x32x256_0_1_2 : S1x1x256.BroadcastsInDim S128x32x256 (![0, 1, 2] : Fin 3 → Fin S128x32x256.rank)
  shapeCasts_S128x16x16x1024_S128x256x1024 : S128x16x16x1024.ShapeCasts S128x256x1024
  reducesTo_S128x1024x32_S128x1024_d2 : S128x1024x32.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x32_0_1_2 : S128x1024x1.BroadcastsInDim S128x1024x32 (![0, 1, 2] : Fin 3 → Fin S128x1024x32.rank)
  shapeCasts_S128x256x1024_S128x16x16x1024 : S128x256x1024.ShapeCasts S128x16x16x1024
  dot_S128x32x256_S256x256_S128x32x256_2_0_01_1_n_n_wf : DotDims.WF S128x32x256 S256x256 S128x32x256 [2] [0] [0, 1] [1] [] []
  dot_S128x256x1024_S128x32x256_S128x1024x32_1_2_2_1_0_0_wf : DotDims.WF S128x256x1024 S128x32x256 S128x1024x32 [1] [2] [2] [1] [0] [0]
  dot_S128x32x256_S128x1024x32_S128x256x1024_1_2_2_1_0_0_wf : DotDims.WF S128x32x256 S128x1024x32 S128x256x1024 [1] [2] [2] [1] [0] [0]

variable [Facts₀]

def dot_S128x32x256_S256x256_S128x32x256_2_0_01_1_n_n : DotDims S128x32x256 S256x256 S128x32x256 where
  lhsContracting := [2]
  rhsContracting := [0]
  lhsNonContracting := [0, 1]
  rhsNonContracting := [1]
  lhsBatch := []
  rhsBatch := []
  wf := dot_S128x32x256_S256x256_S128x32x256_2_0_01_1_n_n_wf
def dot_S128x256x1024_S128x32x256_S128x1024x32_1_2_2_1_0_0 : DotDims S128x256x1024 S128x32x256 S128x1024x32 where
  lhsContracting := [1]
  rhsContracting := [2]
  lhsNonContracting := [2]
  rhsNonContracting := [1]
  lhsBatch := [0]
  rhsBatch := [0]
  wf := dot_S128x256x1024_S128x32x256_S128x1024x32_1_2_2_1_0_0_wf
def dot_S128x32x256_S128x1024x32_S128x256x1024_1_2_2_1_0_0 : DotDims S128x32x256 S128x1024x32 S128x256x1024 where
  lhsContracting := [1]
  rhsContracting := [2]
  lhsNonContracting := [2]
  rhsNonContracting := [1]
  lhsBatch := [0]
  rhsBatch := [0]
  wf := dot_S128x32x256_S128x1024x32_S128x256x1024_1_2_2_1_0_0_wf

class Facts : Prop extends Facts₀ where

variable [Facts]
-- ==== Proof.Spec.lean ====
/-
  The mathematics both programs compute, for one batch element, as functions of coordinates over the extended reals.

  With word embeddings `w[s, e]`, a projection matrix `k[e, i]`, a bias `b[i]` and a context `x[p, c]`:
    * the projected words      `P[s, i] = (Σ_e w[s, e] · k[e, i]) + b[i]`,
    * the logits               `L[c, s] = Σ_p x[p, c] · P[s, p]`   (the context's row axis meets the projection's column axis),
    * a row's shift            `M[c]    = max(-∞, max_s L[c, s])`,
    * the shifted exponentials `E[c, s] = exp(L[c, s] - M[c])`,
    * the attention weights    `A[c, s] = E[c, s] / Σ_s' E[c, s']`,
    * the attended output      `O[p, c] = Σ_s P[s, p] · A[c, s]`.
  The whole arrays are these, batch element by batch element.
-/
import Idealize.ShloMosaic.PureOps.Ideal
import Idealize.ShloMosaic.Lib.ValueIdx

noncomputable section

namespace Cert.ChannelAttn

open Idealize.ShloMosaic Idealize.ShloMosaic.ValueIdx

/-- The word both programs start a row maximum from: the f32 pattern of `-∞`. It is the same word on both sides and is
    never evaluated. -/
def negInf : EReal := Ideal.ofBits .f32 0xFF800000#32

/-- The projected words `P[s, i] = (Σ_e w[s, e] · k[e, i]) + b[i]`. -/
def proj (w : Fin 32 → Fin 256 → EReal) (k : Fin 256 → Fin 256 → EReal) (b : Fin 256 → EReal)
    (s : Fin 32) (i : Fin 256) : EReal :=
  (∑ e : Fin 256, w s e * k e i) + b i

/-- The logits `L[c, s] = Σ_p x[p, c] · P[s, p]`. -/
def logit (x : Fin 256 → Fin 1024 → EReal) (P : Fin 32 → Fin 256 → EReal) (c : Fin 1024) (s : Fin 32) : EReal :=
  ∑ p : Fin 256, x p c * P s p

/-- A row's shift: the maximum of `-∞` and the row's maximum folded from `-∞`. -/
def rowmax (l : Fin 32 → EReal) : EReal :=
  max negInf ((Finset.univ : Finset (Fin 32)).fold max negInf l)

/-- The shifted exponentials `E[c, s] = exp(L[c, s] - M[c])`. -/
def expo (L : Fin 1024 → Fin 32 → EReal) (c : Fin 1024) (s : Fin 32) : EReal :=
  Ideal.exp (L c s - rowmax (L c))

/-- The attention weights `A[c, s] = E[c, s] / Σ_s' E[c, s']`. -/
def attn (L : Fin 1024 → Fin 32 → EReal) (c : Fin 1024) (s : Fin 32) : EReal :=
  Ideal.div (expo L c s) (∑ s' : Fin 32, expo L c s')

/-- The attended output `O[p, c] = Σ_s P[s, p] · A[c, s]`. -/
def outp (P : Fin 32 → Fin 256 → EReal) (A : Fin 1024 → Fin 32 → EReal) (p : Fin 256) (c : Fin 1024) : EReal :=
  ∑ s : Fin 32, P s p * A c s

/-- The attention weights of one batch element, from its four inputs. -/
def attnOf (w : Fin 32 → Fin 256 → EReal) (k : Fin 256 → Fin 256 → EReal) (b : Fin 256 → EReal)
    (x : Fin 256 → Fin 1024 → EReal) : Fin 1024 → Fin 32 → EReal :=
  attn (logit x (proj w k b))

/-- The attended output of one batch element, from its four inputs. -/
def outOf (w : Fin 32 → Fin 256 → EReal) (k : Fin 256 → Fin 256 → EReal) (b : Fin 256 → EReal)
    (x : Fin 256 → Fin 1024 → EReal) : Fin 256 → Fin 1024 → EReal :=
  outp (proj w k b) (attnOf w k b x)

/-! ## The whole arrays -/

/-- Batch element `n`'s word embeddings, as a function of coordinates. -/
def wordsOf (w : (⟨3, ![128, 32, 256]⟩ : Shape).Idx → EReal) (n : Fin 128) : Fin 32 → Fin 256 → EReal :=
  fun s e => w (ix3 n s e)
/-- The projection matrix, as a function of coordinates. -/
def matOf (k : (⟨2, ![256, 256]⟩ : Shape).Idx → EReal) : Fin 256 → Fin 256 → EReal := fun e i => k (ix2 e i)
/-- The bias, as a function of its coordinate. -/
def biasOf (b : (⟨1, ![256]⟩ : Shape).Idx → EReal) : Fin 256 → EReal := fun i => b (ix1 i)
/-- Batch element `n`'s context, as a function of coordinates. -/
def ctxOf (x : (⟨3, ![128, 256, 1024]⟩ : Shape).Idx → EReal) (n : Fin 128) : Fin 256 → Fin 1024 → EReal :=
  fun p c => x (ix3 n p c)

/-- The attention weights at batch element `n`, channel `c`, word `s`. -/
def attnAt (x : (⟨3, ![128, 256, 1024]⟩ : Shape).Idx → EReal) (w : (⟨3, ![128, 32, 256]⟩ : Shape).Idx → EReal)
    (k : (⟨2, ![256, 256]⟩ : Shape).Idx → EReal) (b : (⟨1, ![256]⟩ : Shape).Idx → EReal)
    (n : Fin 128) (c : Fin 1024) (s : Fin 32) : EReal :=
  attnOf (wordsOf w n) (matOf k) (biasOf b) (ctxOf x n) c s

/-- The attended output at batch element `n`, position `p`, channel `c`. -/
def outAt (x : (⟨3, ![128, 256, 1024]⟩ : Shape).Idx → EReal) (w : (⟨3, ![128, 32, 256]⟩ : Shape).Idx → EReal)
    (k : (⟨2, ![256, 256]⟩ : Shape).Idx → EReal) (b : (⟨1, ![256]⟩ : Shape).Idx → EReal)
    (n : Fin 128) (p : Fin 256) (c : Fin 1024) : EReal :=
  outOf (wordsOf w n) (matOf k) (biasOf b) (ctxOf x n) p c

/-- The whole array of attention weights, `[128, 1024, 32]`. -/
def attnArr (x : (⟨3, ![128, 256, 1024]⟩ : Shape).Idx → EReal) (w : (⟨3, ![128, 32, 256]⟩ : Shape).Idx → EReal)
    (k : (⟨2, ![256, 256]⟩ : Shape).Idx → EReal) (b : (⟨1, ![256]⟩ : Shape).Idx → EReal) :
    (⟨3, ![128, 1024, 32]⟩ : Shape).Idx → EReal :=
  fun i => attnAt x w k b (i 0) (i 1) (i 2)

/-- The whole attended output, `[128, 256, 1024]`. -/
def outArr (x : (⟨3, ![128, 256, 1024]⟩ : Shape).Idx → EReal) (w : (⟨3, ![128, 32, 256]⟩ : Shape).Idx → EReal)
    (k : (⟨2, ![256, 256]⟩ : Shape).Idx → EReal) (b : (⟨1, ![256]⟩ : Shape).Idx → EReal) :
    (⟨3, ![128, 256, 1024]⟩ : Shape).Idx → EReal :=
  fun i => outAt x w k b (i 0) (i 1) (i 2)

theorem attnArr_ix3 (x : (⟨3, ![128, 256, 1024]⟩ : Shape).Idx → EReal) (w : (⟨3, ![128, 32, 256]⟩ : Shape).Idx → EReal)
    (k : (⟨2, ![256, 256]⟩ : Shape).Idx → EReal) (b : (⟨1, ![256]⟩ : Shape).Idx → EReal)
    (n : Fin 128) (c : Fin 1024) (s : Fin 32) : attnArr x w k b (ix3 n c s) = attnAt x w k b n c s := rfl

theorem outArr_ix3 (x : (⟨3, ![128, 256, 1024]⟩ : Shape).Idx → EReal) (w : (⟨3, ![128, 32, 256]⟩ : Shape).Idx → EReal)
    (k : (⟨2, ![256, 256]⟩ : Shape).Idx → EReal) (b : (⟨1, ![256]⟩ : Shape).Idx → EReal)
    (n : Fin 128) (p : Fin 256) (c : Fin 1024) : outArr x w k b (ix3 n p c) = outAt x w k b n p c := rfl

end Cert.ChannelAttn

end
-- ==== Proof.BodyProj.lean ====
/-
  The kernel body's projected words, read at an index over the extended reals.

  The body multiplies the words' block `[32, 256]` by the projection matrix `[256, 256]` into a zero accumulator and adds the bias
  row broadcast down the 32 rows. At the exact values a change of float format is the identity and the product into a zero
  accumulator is the plain sum over the contracted axis, so entry `(s, i)` is `(Σ_e w[s, e] · k[e, i]) + b[i]`.
-/
import proofs.«174443_j18794776887897_1_alg».proof.Proof.Gen.KernelIdeal.Skeleton
import proofs.«174443_j18794776887897_1_alg».proof.Proof.Spec
import Idealize.ShloMosaic.PureOps.Ideal.Laws
import Idealize.ShloMosaic.Lib.ValueLayout
import Idealize.ShloMosaic.Lib.ValueIdx
import Idealize.ShloMosaic.Lib.Pipeline.Value

noncomputable section

namespace Cert.ChannelAttn.Body

open Cert.KernelIdeal Cert.KernelIdeal.Gen Idealize.ShloMosaic Idealize.ShloMosaic.ValueIdx Cert.ChannelAttn

/-- The words' block of one batch element as a function of coordinates (its leading unit axis dropped). -/
def wordsBlk (v0 : Vec Ideal S1x32x256 .f32) : Fin 32 → Fin 256 → EReal := fun s e => v0 (ix3 (0 : Fin 1) s e)
/-- The projection matrix's block as a function of coordinates. -/
def matBlk (v2 : Vec Ideal S256x256 .f32) : Fin 256 → Fin 256 → EReal := fun e i => v2 (ix2 e i)
/-- The bias block as a function of its coordinate. -/
def biasBlk (v3 : Vec Ideal S256 .f32) : Fin 256 → EReal := fun i => v3 (ix1 i)
/-- The context's block of one batch element as a function of coordinates (its leading unit axis dropped). -/
def ctxBlk (v4 : Vec Ideal S1x256x1024 .f32) : Fin 256 → Fin 1024 → EReal := fun p c => v4 (ix3 (0 : Fin 1) p c)

/-! ## The first product's operand indices: output `(s, i)`, contraction position `e`: left `(s, e)`, right `(e, i)` -/

theorem proj_lhs (s : Fin 32) (i : Fin 256) (e : Fin 256) :
    dot_S32x256_S256x256_S32x256_1_0_0_1_n_n.lhsIdx (ix2 s i)
      ((contrEquiv1 dot_S32x256_S256x256_S32x256_1_0_0_1_n_n 256 rfl rfl).symm e) = ix2 s e := by
  funext a; apply Fin.ext
  match a with
  | ⟨0, _⟩ =>
    show (dot_S32x256_S256x256_S32x256_1_0_0_1_n_n.lhsIdx (ix2 s i) _ 0).val = s.val
    unfold DotDims.lhsIdx
    rw [dif_neg (show ¬(0 : Fin S32x256.rank) ∈ dot_S32x256_S256x256_S32x256_1_0_0_1_n_n.lhsBatch by decide),
      dif_pos (show (0 : Fin S32x256.rank) ∈ dot_S32x256_S256x256_S32x256_1_0_0_1_n_n.lhsNonContracting by decide)]
    rfl
  | ⟨1, _⟩ =>
    exact (dot_S32x256_S256x256_S32x256_1_0_0_1_n_n.lhsIdx_val_of_single rfl _ _).trans
      (contrEquiv1_symm_val dot_S32x256_S256x256_S32x256_1_0_0_1_n_n 256 rfl rfl e)

theorem proj_rhs (s : Fin 32) (i : Fin 256) (e : Fin 256) :
    dot_S32x256_S256x256_S32x256_1_0_0_1_n_n.rhsIdx (ix2 s i)
      ((contrEquiv1 dot_S32x256_S256x256_S32x256_1_0_0_1_n_n 256 rfl rfl).symm e) = ix2 e i := by
  funext a; apply Fin.ext
  match a with
  | ⟨0, _⟩ =>
    exact (dot_S32x256_S256x256_S32x256_1_0_0_1_n_n.rhsIdx_val_of_single rfl _ _).trans
      (contrEquiv1_symm_val dot_S32x256_S256x256_S32x256_1_0_0_1_n_n 256 rfl rfl e)
  | ⟨1, _⟩ =>
    show (dot_S32x256_S256x256_S32x256_1_0_0_1_n_n.rhsIdx (ix2 s i) _ 1).val = i.val
    unfold DotDims.rhsIdx
    rw [dif_neg (show ¬(1 : Fin S256x256.rank) ∈ dot_S32x256_S256x256_S32x256_1_0_0_1_n_n.rhsBatch by decide),
      dif_pos (show (1 : Fin S256x256.rank) ∈ dot_S32x256_S256x256_S32x256_1_0_0_1_n_n.rhsNonContracting by decide)]
    rfl

/-- The body's projected words at `(s, i)`. -/
theorem pay1_apply (v0 : Vec Ideal S1x32x256 .f32) (v2 : Vec Ideal S256x256 .f32) (v3 : Vec Ideal S256 .f32)
    (s : Fin 32) (i : Fin 256) :
    k0_pay1 (F := Ideal) v0 v2 v3 (ix2 s i) = proj (wordsBlk v0) (matBlk v2) (biasBlk v3) s i := by
  unfold k0_pay1 proj
  show FloatOps.matmul (F := Ideal) dot_S32x256_S256x256_S32x256_1_0_0_1_n_n none
        (truncf .bf16 (shapeCast S32x256 v0 shapeCasts_S1x32x256_S32x256) bitsLt_bf16_f32)
        (truncf .bf16 v2 bitsLt_bf16_f32) (constant S32x256 .f32 0x00000000#32) (ix2 s i)
      + broadcastTo S32x256 (shapeCast S1x256 v3 shapeCasts_S256_S1x256) broadcasts_S1x256_S32x256 (ix2 s i) = _
  rw [Ideal.matmul_constant_zero_apply,
    ← Equiv.sum_comp (contrEquiv1 dot_S32x256_S256x256_S32x256_1_0_0_1_n_n 256 rfl rfl).symm]
  refine congrArg₂ (· + ·) (Finset.sum_congr rfl fun e _ => ?_) ?_
  · rw [proj_lhs, proj_rhs]
    show shapeCast S32x256 v0 shapeCasts_S1x32x256_S32x256 (ix2 s e) * v2 (ix2 e i) = _
    rw [shapeCast_1ab_ab_apply]
    rfl
  · rw [broadcastTo_1b_ab_apply, shapeCast_a_1a_apply]
    rfl

end Cert.ChannelAttn.Body

end
-- ==== Proof.Layout.lean ====
/-
  Two layout readings the row reductions of a softmax need: a vector `[a]` cast to a column `[a, 1]` reads, at `(i, u)`,
  the vector at `i`; and a column `[a, 1]` broadcast to `[a, b]` reads, at `(i, j)`, the column at `(i, 0)`.
-/
import Idealize.ShloMosaic.Lib.Pipeline.Value
import Idealize.ShloMosaic.Lib.ValueIdx

noncomputable section

namespace Cert.ChannelAttn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ChannelAttn.Layout

end
-- ==== Proof.BodyAttn.lean ====
/-
  The kernel body's logits, attention weights and attended output, read at an index over the extended reals.

  The logits are the context's block `[256, 1024]` contracted along its rows with the projected words `[32, 256]` along their
  columns: entry `(c, s)` is `Σ_p x[p, c] · P[s, p]`. The softmax along each row `c` shifts by the row's maximum (folded from
  `-∞`, and once more joined with `-∞`), exponentiates, and divides by the row's sum; the shift and the sum are vectors
  `[1024]` cast to columns `[1024, 1]` and broadcast along the 32 words. The attended output contracts the projected words
  with the weights over the words: entry `(p, c)` is `Σ_s P[s, p] · A[c, s]`.
-/
import proofs.«174443_j18794776887897_1_alg».proof.Proof.BodyProj
import proofs.«174443_j18794776887897_1_alg».proof.Proof.Layout

noncomputable section

namespace Cert.ChannelAttn.Body

open Cert.KernelIdeal Cert.KernelIdeal.Gen Idealize.ShloMosaic Idealize.ShloMosaic.ValueIdx Cert.ChannelAttn
open Cert.ChannelAttn.Layout

/-! ## The second product's operand indices: output `(c, s)`, contraction position `p`: left `(p, c)`, right `(s, p)` -/

theorem logit_lhs (c : Fin 1024) (s : Fin 32) (p : Fin 256) :
    dot_S256x1024_S32x256_S1024x32_0_1_1_0_n_n.lhsIdx (ix2 c s) ((contrEquiv1 dot_S256x1024_S32x256_S1024x32_0_1_1_0_n_n 256 rfl rfl).symm p) = ix2 p c := by
  funext a; apply Fin.ext
  match a with
  | ⟨0, _⟩ =>
    exact (dot_S256x1024_S32x256_S1024x32_0_1_1_0_n_n.lhsIdx_val_of_single rfl _ _).trans (contrEquiv1_symm_val dot_S256x1024_S32x256_S1024x32_0_1_1_0_n_n 256 rfl rfl p)
  | ⟨1, _⟩ =>
    show (dot_S256x1024_S32x256_S1024x32_0_1_1_0_n_n.lhsIdx (ix2 c s) _ 1).val = c.val
    unfold DotDims.lhsIdx
    rw [dif_neg (show ¬(1 : Fin S256x1024.rank) ∈ dot_S256x1024_S32x256_S1024x32_0_1_1_0_n_n.lhsBatch by decide),
      dif_pos (show (1 : Fin S256x1024.rank) ∈ dot_S256x1024_S32x256_S1024x32_0_1_1_0_n_n.lhsNonContracting by decide)]
    rfl

theorem logit_rhs (c : Fin 1024) (s : Fin 32) (p : Fin 256) :
    dot_S256x1024_S32x256_S1024x32_0_1_1_0_n_n.rhsIdx (ix2 c s) ((contrEquiv1 dot_S256x1024_S32x256_S1024x32_0_1_1_0_n_n 256 rfl rfl).symm p) = ix2 s p := by
  funext a; apply Fin.ext
  match a with
  | ⟨0, _⟩ =>
    show (dot_S256x1024_S32x256_S1024x32_0_1_1_0_n_n.rhsIdx (ix2 c s) _ 0).val = s.val
    unfold DotDims.rhsIdx
    rw [dif_neg (show ¬(0 : Fin S32x256.rank) ∈ dot_S256x1024_S32x256_S1024x32_0_1_1_0_n_n.rhsBatch by decide),
      dif_pos (show (0 : Fin S32x256.rank) ∈ dot_S256x1024_S32x256_S1024x32_0_1_1_0_n_n.rhsNonContracting by decide)]
    rfl
  | ⟨1, _⟩ =>
    exact (dot_S256x1024_S32x256_S1024x32_0_1_1_0_n_n.rhsIdx_val_of_single rfl _ _).trans (contrEquiv1_symm_val dot_S256x1024_S32x256_S1024x32_0_1_1_0_n_n 256 rfl rfl p)

/-- The body's logits `[1024, 32]`. -/
def logitVec (v0 : Vec Ideal S1x32x256 .f32) (v2 : Vec Ideal S256x256 .f32) (v3 : Vec Ideal S256 .f32)
    (v4 : Vec Ideal S1x256x1024 .f32) : FVec Ideal S1024x32 .f32 :=
  matmul (F := Ideal) dot_S256x1024_S32x256_S1024x32_0_1_1_0_n_n none
    (truncf .bf16 (shapeCast S256x1024 v4 shapeCasts_S1x256x1024_S256x1024) bitsLt_bf16_f32)
    (k0_pay1 (F := Ideal) v0 v2 v3) (constant (F := Ideal) S1024x32 .f32 0x00000000#32)

/-- The logits at `(c, s)`. -/
theorem logitVec_apply (v0 : Vec Ideal S1x32x256 .f32) (v2 : Vec Ideal S256x256 .f32) (v3 : Vec Ideal S256 .f32)
    (v4 : Vec Ideal S1x256x1024 .f32) (c : Fin 1024) (s : Fin 32) :
    logitVec v0 v2 v3 v4 (ix2 c s) = logit (ctxBlk v4) (proj (wordsBlk v0) (matBlk v2) (biasBlk v3)) c s := by
  unfold logitVec logit
  show FloatOps.matmul (F := Ideal) dot_S256x1024_S32x256_S1024x32_0_1_1_0_n_n none _ _ (constant S1024x32 .f32 0x00000000#32) (ix2 c s) = _
  rw [Ideal.matmul_constant_zero_apply, ← Equiv.sum_comp (contrEquiv1 dot_S256x1024_S32x256_S1024x32_0_1_1_0_n_n 256 rfl rfl).symm]
  refine Finset.sum_congr rfl fun p _ => ?_
  rw [logit_lhs, logit_rhs, pay1_apply]
  show shapeCast S256x1024 v4 shapeCasts_S1x256x1024_S256x1024 (ix2 p c) * _ = _
  rw [shapeCast_1ab_ab_apply]
  rfl

/-! ## The softmax along the words, of any logits -/

/-- A row with a word's coordinate put back: row `c` with word `s` inserted is `(c, s)`. -/
theorem lift_lane (c : Fin 1024) (s : Fin 32) : reduces_S1024x32_S1024.lift (ix1 c) s = ix2 c s :=
  funext fun a => Fin.ext (by match a with | ⟨0, _⟩ => rfl | ⟨1, _⟩ => rfl)

/-- Each row's shift `[1024]`. -/
def shiftVec (a : FVec Ideal S1024x32 .f32) : FVec Ideal S1024 .f32 :=
  maximumf (broadcast S1024 (Scalar.ofBits (F := Ideal) .f32 0xFF800000#32))
    (multiReduction (F := Ideal) .maximumf [1] S1024 a 0xFF800000#32 reduces_S1024x32_S1024 (.inl rfl) rfl)

/-- The shifted exponentials `[1024, 32]`. -/
def expVec (a : FVec Ideal S1024x32 .f32) : FVec Ideal S1024x32 .f32 :=
  exp (subf a (broadcastTo S1024x32 (shapeCast S1024x1 (shiftVec a) shapeCasts_S1024_S1024x1) broadcasts_S1024x1_S1024x32))

/-- Each row's sum of exponentials `[1024]`. -/
def sumVec (a : FVec Ideal S1024x32 .f32) : FVec Ideal S1024 .f32 :=
  multiReduction (F := Ideal) .add [1] S1024 (expVec a) 0x00000000#32 reduces_S1024x32_S1024 (.inl rfl) rfl

/-- The softmax `[1024, 32]`. -/
def softmaxVec (a : FVec Ideal S1024x32 .f32) : FVec Ideal S1024x32 .f32 :=
  divf (expVec a) (broadcastTo S1024x32 (shapeCast S1024x1 (sumVec a) shapeCasts_S1024_S1024x1) broadcasts_S1024x1_S1024x32)

/-- The logits as a function of coordinates. -/
def rows (a : FVec Ideal S1024x32 .f32) : Fin 1024 → Fin 32 → EReal := fun c s => a (ix2 c s)

theorem shiftVec_apply (a : FVec Ideal S1024x32 .f32) (c : Fin 1024) : shiftVec a (ix1 c) = rowmax (rows a c) := by
  unfold shiftVec rowmax negInf
  show max (Ideal.ofBits .f32 0xFF800000#32)
      (multiReduction (F := Ideal) .maximumf [1] S1024 a 0xFF800000#32 reduces_S1024x32_S1024 (.inl rfl) rfl (ix1 c)) = _
  refine congrArg (max _) ?_
  refine (Ideal.multiReduction_maximumf_single a 0xFF800000#32 reduces_S1024x32_S1024 (.inl rfl) rfl (ix1 c)).trans ?_
  have hf : (a ∘ reduces_S1024x32_S1024.lift (ix1 c)) = (fun s : Fin 32 => rows a c s) :=
    funext fun s => congrArg a (lift_lane c s)
  rw [hf]
  rfl

theorem expVec_apply (a : FVec Ideal S1024x32 .f32) (c : Fin 1024) (s : Fin 32) :
    expVec a (ix2 c s) = expo (rows a) c s := by
  unfold expVec expo
  show Ideal.exp (a (ix2 c s) - broadcastTo S1024x32 (shapeCast S1024x1 (shiftVec a) shapeCasts_S1024_S1024x1)
      broadcasts_S1024x1_S1024x32 (ix2 c s)) = _
  rw [broadcastTo_a1_ab_apply, shapeCast_a_a1_apply, shiftVec_apply]
  rfl

theorem sumVec_apply (a : FVec Ideal S1024x32 .f32) (c : Fin 1024) :
    sumVec a (ix1 c) = ∑ s : Fin 32, expo (rows a) c s := by
  unfold sumVec
  refine (Ideal.multiReduction_add_single (expVec a) 0x00000000#32 reduces_S1024x32_S1024 (.inl rfl) rfl (ix1 c)).trans ?_
  exact Finset.sum_congr rfl fun s _ => (congrArg (expVec a) (lift_lane c s)).trans (expVec_apply a c s)

theorem softmaxVec_apply (a : FVec Ideal S1024x32 .f32) (c : Fin 1024) (s : Fin 32) :
    softmaxVec a (ix2 c s) = attn (rows a) c s := by
  unfold softmaxVec attn
  show Ideal.div (expVec a (ix2 c s)) (broadcastTo S1024x32 (shapeCast S1024x1 (sumVec a) shapeCasts_S1024_S1024x1)
      broadcasts_S1024x1_S1024x32 (ix2 c s)) = _
  rw [broadcastTo_a1_ab_apply, shapeCast_a_a1_apply, sumVec_apply, expVec_apply]

/-- The body's attention weights are the softmax of its logits. -/
theorem pay2_eq (v0 : Vec Ideal S1x32x256 .f32) (v2 : Vec Ideal S256x256 .f32) (v3 : Vec Ideal S256 .f32)
    (v4 : Vec Ideal S1x256x1024 .f32) : k0_pay2 (F := Ideal) v0 v2 v3 v4 = softmaxVec (logitVec v0 v2 v3 v4) := rfl

/-- The body's attention weights at `(c, s)`. -/
theorem pay2_apply (v0 : Vec Ideal S1x32x256 .f32) (v2 : Vec Ideal S256x256 .f32) (v3 : Vec Ideal S256 .f32)
    (v4 : Vec Ideal S1x256x1024 .f32) (c : Fin 1024) (s : Fin 32) :
    k0_pay2 (F := Ideal) v0 v2 v3 v4 (ix2 c s) = attnOf (wordsBlk v0) (matBlk v2) (biasBlk v3) (ctxBlk v4) c s := by
  rw [pay2_eq, softmaxVec_apply]
  unfold attnOf
  have hr : rows (logitVec v0 v2 v3 v4) = logit (ctxBlk v4) (proj (wordsBlk v0) (matBlk v2) (biasBlk v3)) :=
    funext fun c => funext fun s => logitVec_apply v0 v2 v3 v4 c s
  rw [hr]

/-! ## The third product's operand indices: output `(p, c)`, contraction position `s`: left `(s, p)`, right `(c, s)` -/

theorem out_lhs (p : Fin 256) (c : Fin 1024) (s : Fin 32) :
    dot_S32x256_S1024x32_S256x1024_0_1_1_0_n_n.lhsIdx (ix2 p c) ((contrEquiv1 dot_S32x256_S1024x32_S256x1024_0_1_1_0_n_n 32 rfl rfl).symm s) = ix2 s p := by
  funext a; apply Fin.ext
  match a with
  | ⟨0, _⟩ =>
    exact (dot_S32x256_S1024x32_S256x1024_0_1_1_0_n_n.lhsIdx_val_of_single rfl _ _).trans (contrEquiv1_symm_val dot_S32x256_S1024x32_S256x1024_0_1_1_0_n_n 32 rfl rfl s)
  | ⟨1, _⟩ =>
    show (dot_S32x256_S1024x32_S256x1024_0_1_1_0_n_n.lhsIdx (ix2 p c) _ 1).val = p.val
    unfold DotDims.lhsIdx
    rw [dif_neg (show ¬(1 : Fin S32x256.rank) ∈ dot_S32x256_S1024x32_S256x1024_0_1_1_0_n_n.lhsBatch by decide),
      dif_pos (show (1 : Fin S32x256.rank) ∈ dot_S32x256_S1024x32_S256x1024_0_1_1_0_n_n.lhsNonContracting by decide)]
    rfl

theorem out_rhs (p : Fin 256) (c : Fin 1024) (s : Fin 32) :
    dot_S32x256_S1024x32_S256x1024_0_1_1_0_n_n.rhsIdx (ix2 p c) ((contrEquiv1 dot_S32x256_S1024x32_S256x1024_0_1_1_0_n_n 32 rfl rfl).symm s) = ix2 c s := by
  funext a; apply Fin.ext
  match a with
  | ⟨0, _⟩ =>
    show (dot_S32x256_S1024x32_S256x1024_0_1_1_0_n_n.rhsIdx (ix2 p c) _ 0).val = c.val
    unfold DotDims.rhsIdx
    rw [dif_neg (show ¬(0 : Fin S1024x32.rank) ∈ dot_S32x256_S1024x32_S256x1024_0_1_1_0_n_n.rhsBatch by decide),
      dif_pos (show (0 : Fin S1024x32.rank) ∈ dot_S32x256_S1024x32_S256x1024_0_1_1_0_n_n.rhsNonContracting by decide)]
    rfl
  | ⟨1, _⟩ =>
    exact (dot_S32x256_S1024x32_S256x1024_0_1_1_0_n_n.rhsIdx_val_of_single rfl _ _).trans (contrEquiv1_symm_val dot_S32x256_S1024x32_S256x1024_0_1_1_0_n_n 32 rfl rfl s)

/-- What the body stores as the attended output, at `(0, p, c)`. -/
theorem pay3_apply (v0 : Vec Ideal S1x32x256 .f32) (v2 : Vec Ideal S256x256 .f32) (v3 : Vec Ideal S256 .f32)
    (v4 : Vec Ideal S1x256x1024 .f32) (u : Fin 1) (p : Fin 256) (c : Fin 1024) :
    k0_pay3 (F := Ideal) v0 v2 v3 v4 (ix3 u p c) = outOf (wordsBlk v0) (matBlk v2) (biasBlk v3) (ctxBlk v4) p c := by
  unfold k0_pay3 outOf outp
  rw [shapeCast_ab_1ab_apply]
  show FloatOps.matmul (F := Ideal) dot_S32x256_S1024x32_S256x1024_0_1_1_0_n_n none _ _ (constant S256x1024 .f32 0x00000000#32) (ix2 p c) = _
  rw [Ideal.matmul_constant_zero_apply, ← Equiv.sum_comp (contrEquiv1 dot_S32x256_S1024x32_S256x1024_0_1_1_0_n_n 32 rfl rfl).symm]
  refine Finset.sum_congr rfl fun s _ => ?_
  rw [out_lhs, out_rhs, pay1_apply]
  show _ * k0_pay2 (F := Ideal) v0 v2 v3 v4 (ix2 c s) = _
  rw [pay2_apply]

/-- What the body stores as the attention weights, at `(0, c, s)`. -/
theorem pay4_apply (v0 : Vec Ideal S1x32x256 .f32) (v2 : Vec Ideal S256x256 .f32) (v3 : Vec Ideal S256 .f32)
    (v4 : Vec Ideal S1x256x1024 .f32) (u : Fin 1) (c : Fin 1024) (s : Fin 32) :
    k0_pay4 (F := Ideal) v0 v2 v3 v4 (ix3 u c s) = attnOf (wordsBlk v0) (matBlk v2) (biasBlk v3) (ctxBlk v4) c s := by
  unfold k0_pay4
  rw [shapeCast_ab_1ab_apply, pay2_apply]

end Cert.ChannelAttn.Body

end
-- ==== Proof.KernelValue.lean ====
/-
  From blocks to arrays: what the kernel's two output arrays hold after the run, over the extended reals.

  Grid point `t` works on batch element `t`: it reads block `(t, 0, 0)` of the words `[128, 32, 256]` and of the context
  `[128, 256, 1024]` (the argument with its two spatial axes merged by the line before the launch), the whole projection matrix
  and bias, and writes back block `(t, 0, 0)` of the attended output `[128, 256, 1024]` and of the attention weights
  `[128, 1024, 32]`. Each written block is the specification's per-batch function of batch element `t`'s inputs, so it is the
  block of ONE whole-array function; the 128 blocks tile each output array, so each array ends at that function. The line
  after the launch splits the attended output's merged axis again.
-/
import proofs.«174443_j18794776887897_1_alg».proof.Proof.Gen.KernelIdeal.Frame
import proofs.«174443_j18794776887897_1_alg».proof.Proof.BodyAttn
import Idealize.ShloMosaic.Lib.Pipeline.Value
import Idealize.ShloMosaic.Lib.StableHlo.Run

set_option maxRecDepth 16384

noncomputable section

namespace Cert.ChannelAttn.Run

open Cert.KernelIdeal Cert.KernelIdeal.Gen Idealize.ShloMosaic Idealize.ShloMosaic.TcCoe Idealize.SL.Sem
open Idealize.ShloMosaic.ValueIdx Idealize.ShloMosaic.StableHlo Cert.ChannelAttn Cert.ChannelAttn.Body
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The batch element grid point `t` works on. -/
def pt (t : Fin cfg0.N) : Fin 128 := ⟨t.val, Nat.lt_of_lt_of_eq t.isLt (show cfg0.N = 128 from N_0)⟩

/-- The printed index maps, decided over the 128 points: the batched windows sit at block `(t, 0, 0)`, the projection matrix
    and the bias at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The arrays as the launch finds them -/

/-- The words, the projection matrix, the bias and the context as the launch finds them. -/
abbrev wordsV (c : Dev nD) : S128x32x256.Idx → EReal := V m c main_arg1
abbrev matV (c : Dev nD) : S256x256.Idx → EReal := V m c main_arg2
abbrev biasV (c : Dev nD) : S256.Idx → EReal := V m c main_arg3
abbrev ctxV (c : Dev nD) : S128x256x1024.Idx → EReal := V m c main_v0

/-! ## Each input block is its array read at batch element `t` -/

theorem words_read (c : Dev nD) (t : Fin cfg0.N) (s : Fin 32) (e : Fin 256) :
    (iblk m c 0 t : Vec Ideal S1x32x256 .f32) (ix3 (0 : Fin 1) s e) = wordsV m c (ix3 (pt t) s e) := by
  obtain ⟨h0, h1, h2, -⟩ := idx_facts t
  unfold iblk
  rw [View.read_apply]
  show V m c main_arg1 _ = V m c main_arg1 _
  refine congrArg (V m c main_arg1) (funext fun a => Fin.ext ?_)
  match a with
  | ⟨0, _⟩ => show win0_0.index t (0 : Fin 3) * 1 + 1 * 0 = t.val; omega
  | ⟨1, _⟩ => show win0_0.index t (1 : Fin 3) * 32 + 1 * s.val = s.val; omega
  | ⟨2, _⟩ => show win0_0.index t (2 : Fin 3) * 256 + 1 * e.val = e.val; omega

theorem mat_read (c : Dev nD) (t : Fin cfg0.N) (e : Fin 256) (i : Fin 256) :
    (iblk m c 1 t : Vec Ideal S256x256 .f32) (ix2 e i) = matV m c (ix2 e i) := by
  obtain ⟨-, -, -, h0, h1, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 2) * 256 + 1 * e.val = e.val; omega
  | ⟨1, _⟩ => show win0_1.index t (1 : Fin 2) * 256 + 1 * i.val = i.val; omega

theorem bias_read (c : Dev nD) (t : Fin cfg0.N) (i : Fin 256) :
    (iblk m c 2 t : Vec Ideal S256 .f32) (ix1 i) = biasV m c (ix1 i) := by
  obtain ⟨-, -, -, -, -, h0, -⟩ := idx_facts t
  unfold iblk
  rw [View.read_apply]
  show V m c main_arg3 _ = V m c main_arg3 _
  refine congrArg (V m c main_arg3) (funext fun a => Fin.ext ?_)
  match a with
  | ⟨0, _⟩ => show win0_2.index t (0 : Fin 1) * 256 + 1 * i.val = i.val; omega

theorem ctx_read (c : Dev nD) (t : Fin cfg0.N) (p : Fin 256) (q : Fin 1024) :
    (iblk m c 3 t : Vec Ideal S1x256x1024 .f32) (ix3 (0 : Fin 1) p q) = ctxV m c (ix3 (pt t) p q) := by
  obtain ⟨-, -, -, -, -, -, h0, h1, h2, -⟩ := idx_facts t
  unfold iblk
  rw [View.read_apply]
  show V m c main_v0 _ = V m c main_v0 _
  refine congrArg (V m c main_v0) (funext fun a => Fin.ext ?_)
  match a with
  | ⟨0, _⟩ => show win0_3.index t (0 : Fin 3) * 1 + 1 * 0 = t.val; omega
  | ⟨1, _⟩ => show win0_3.index t (1 : Fin 3) * 256 + 1 * p.val = p.val; omega
  | ⟨2, _⟩ => show win0_3.index t (2 : Fin 3) * 1024 + 1 * q.val = q.val; omega

/-- So the four blocks at point `t`, as functions of coordinates, are batch element `t`'s inputs. -/
theorem words_blk (c : Dev nD) (t : Fin cfg0.N) : wordsBlk (iblk m c 0 t) = wordsOf (wordsV m c) (pt t) :=
  funext fun s => funext fun e => words_read m c t s e
theorem mat_blk (c : Dev nD) (t : Fin cfg0.N) : matBlk (iblk m c 1 t) = matOf (matV m c) :=
  funext fun e => funext fun i => mat_read m c t e i
theorem bias_blk (c : Dev nD) (t : Fin cfg0.N) : biasBlk (iblk m c 2 t) = biasOf (biasV m c) :=
  funext fun i => bias_read m c t i
theorem ctx_blk (c : Dev nD) (t : Fin cfg0.N) : ctxBlk (iblk m c 3 t) = ctxOf (ctxV m c) (pt t) :=
  funext fun p => funext fun q => ctx_read m c t p q

/-! ## The two whole-array functions -/

/-- The attended output `[128, 256, 1024]` of the arrays the launch finds. -/
def outG (c : Dev nD) : S128x256x1024.Idx → EReal := outArr (ctxV m c) (wordsV m c) (matV m c) (biasV m c)
/-- The attention weights `[128, 1024, 32]` of the arrays the launch finds. -/
def attnG (c : Dev nD) : S128x1024x32.Idx → EReal := attnArr (ctxV m c) (wordsV m c) (matV m c) (biasV m c)

/-! ## What point `t` writes back -/

/-- Point `t` writes back block `t` of the attended output. -/
theorem flushed_out (c : Dev nD) (t : Fin cfg0.N) :
    (dats m 0 c).flushed 4 t = ((cfg0.win 4).blk t).view.read (Elt Ideal) (outG m c) := by
  show (cfg0.win 4).cut (grid0.coords t) ((dats m 0 c).after 4 t) = _
  rw [after0_4]
  unfold out0_4
  rw [View.canon_unit_zero hz3]
  simp only [View.ld_unit_zero (S := S1x32x256) hz3, View.ld_unit_zero (S := S256x256) hz2,
    View.ld_unit_zero (S := S256) hz1, View.ld_unit_zero (S := S1x256x1024) hz3]
  obtain ⟨-, -, -, -, -, -, -, -, -, h0, h1, h2, -⟩ := idx_facts t
  funext j
  obtain ⟨u, p, q, rfl⟩ : ∃ (u : Fin 1) (p : Fin 256) (q : Fin 1024), j = ix3 u p q := ⟨j 0, j 1, j 2, eq_ix3 j⟩
  show k0_pay3 (F := Ideal) (iblk m c 0 t) (iblk m c 1 t) (iblk m c 2 t) (iblk m c 3 t) (ix3 u p q)
    = outG m c (((cfg0.win 4).blk t).view.emb (ix3 u p q))
  have he : ((cfg0.win 4).blk t).view.emb (ix3 u p q) = ix3 (pt t) p q := by
    funext a; apply Fin.ext
    match a with
    | ⟨0, _⟩ => show win0_4.index t (0 : Fin 3) * 1 + 1 * u.val = t.val; have := u.isLt; omega
    | ⟨1, _⟩ => show win0_4.index t (1 : Fin 3) * 256 + 1 * p.val = p.val; omega
    | ⟨2, _⟩ => show win0_4.index t (2 : Fin 3) * 1024 + 1 * q.val = q.val; omega
  refine (pay3_apply (iblk m c 0 t) (iblk m c 1 t) (iblk m c 2 t) (iblk m c 3 t) u p q).trans ?_
  rw [he, words_blk, mat_blk, bias_blk, ctx_blk]
  rfl

/-- Point `t` writes back block `t` of the attention weights. -/
theorem flushed_attn (c : Dev nD) (t : Fin cfg0.N) :
    (dats m 0 c).flushed 5 t = ((cfg0.win 5).blk t).view.read (Elt Ideal) (attnG m c) := by
  show (cfg0.win 5).cut (grid0.coords t) ((dats m 0 c).after 5 t) = _
  rw [after0_5]
  unfold out0_5
  rw [View.canon_unit_zero hz3]
  simp only [View.ld_unit_zero (S := S1x32x256) hz3, View.ld_unit_zero (S := S256x256) hz2,
    View.ld_unit_zero (S := S256) hz1, View.ld_unit_zero (S := S1x256x1024) hz3]
  obtain ⟨-, -, -, -, -, -, -, -, -, -, -, -, h0, h1, h2⟩ := idx_facts t
  funext j
  obtain ⟨u, q, s, rfl⟩ : ∃ (u : Fin 1) (q : Fin 1024) (s : Fin 32), j = ix3 u q s := ⟨j 0, j 1, j 2, eq_ix3 j⟩
  show k0_pay4 (F := Ideal) (iblk m c 0 t) (iblk m c 1 t) (iblk m c 2 t) (iblk m c 3 t) (ix3 u q s)
    = attnG m c (((cfg0.win 5).blk t).view.emb (ix3 u q s))
  have he : ((cfg0.win 5).blk t).view.emb (ix3 u q s) = ix3 (pt t) q s := by
    funext a; apply Fin.ext
    match a with
    | ⟨0, _⟩ => show win0_5.index t (0 : Fin 3) * 1 + 1 * u.val = t.val; have := u.isLt; omega
    | ⟨1, _⟩ => show win0_5.index t (1 : Fin 3) * 1024 + 1 * q.val = q.val; omega
    | ⟨2, _⟩ => show win0_5.index t (2 : Fin 3) * 32 + 1 * s.val = s.val; omega
  refine (pay4_apply (iblk m c 0 t) (iblk m c 1 t) (iblk m c 2 t) (iblk m c 3 t) u q s).trans ?_
  rw [he, words_blk, mat_blk, bias_blk, ctx_blk]
  rfl

/-! ## The blocks tile the arrays -/

theorem mem_blk_out (t : Fin cfg0.N) (i : S128x256x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v1_0).slice (win0_4.rect t)).set ↔ _
  rw [View.set_slice_whole, Rect.mem_set_unit]
  exact Iff.rfl

theorem mem_blk_attn (t : Fin cfg0.N) (i : S128x1024x32.Idx) :
    i ∈ ((cfg0.win 5).blk t).view.set ↔ ∀ a : Fin 3, win0_5.index t a * S1x1024x32.size a ≤ (i a).val
      ∧ (i a).val < win0_5.index t a * S1x1024x32.size a + S1x1024x32.size a := by
  show i ∈ ((View.whole main_v1_1).slice (win0_5.rect t)).set ↔ _
  rw [View.set_slice_whole, Rect.mem_set_unit]
  exact Iff.rfl

/-- Index `(n, p, q)` of the attended output lies in point `n`'s block. -/
theorem cover_out (i : S128x256x1024.Idx) :
    ∃ t : Fin cfg0.N, (cfg0.win 4).flush t = true ∧ i ∈ ((cfg0.win 4).blk t).view.set := by
  have b0 : (i 0).val < 128 := (i 0).isLt
  have b1 : (i 1).val < 256 := (i 1).isLt
  have b2 : (i 2).val < 1024 := (i 2).isLt
  have hN : cfg0.N = 128 := N_0
  let t : Fin cfg0.N := ⟨(i 0).val, by rw [hN]; exact b0⟩
  have ht : t.val = (i 0).val := rfl
  obtain ⟨-, -, -, -, -, -, -, -, -, h0, h1, h2, -⟩ := idx_facts t
  refine ⟨t, flush0_4 t, ?_⟩
  rw [mem_blk_out]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- Index `(n, q, s)` of the attention weights lies in point `n`'s block. -/
theorem cover_attn (i : S128x1024x32.Idx) :
    ∃ t : Fin cfg0.N, (cfg0.win 5).flush t = true ∧ i ∈ ((cfg0.win 5).blk t).view.set := by
  have b0 : (i 0).val < 128 := (i 0).isLt
  have b1 : (i 1).val < 1024 := (i 1).isLt
  have b2 : (i 2).val < 32 := (i 2).isLt
  have hN : cfg0.N = 128 := N_0
  let t : Fin cfg0.N := ⟨(i 0).val, by rw [hN]; exact b0⟩
  have ht : t.val = (i 0).val := rfl
  obtain ⟨-, -, -, -, -, -, -, -, -, -, -, -, h0, h1, h2⟩ := idx_facts t
  refine ⟨t, flush0_5 t, ?_⟩
  rw [mem_blk_attn]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 32 ≤ (i 2).val ∧ (i 2).val < win0_5.index t (2 : Fin 3) * 32 + 32; omega

/-- The attended output's array after the run. -/
theorem final_out (c : Dev nD) : (dats m 0 c).arrAt 4 cfg0.N = outG m c :=
  (dats m 0 c).arrAt_eq_of_cover 4 (outG m c) (fun t _ => flushed_out m c t) cover_out

/-- The attention weights' array after the run. -/
theorem final_attn (c : Dev nD) : (dats m 0 c).arrAt 5 cfg0.N = attnG m c :=
  (dats m 0 c).arrAt_eq_of_cover 5 (attnG m c) (fun t _ => flushed_attn m c t) cover_attn

end Cert.ChannelAttn.Run

end
-- ==== Proof.KernelRun.lean ====
/-
  The kernel's run, read: both results as the specification's whole-array functions of the arguments.

  The line before the launch merges the context's two spatial axes; the launch leaves the attended output `[128, 256, 1024]`
  and the attention weights `[128, 1024, 32]` at the specification's functions of the arrays it finds; the line after the
  launch splits the attended output's merged axis again. The words, the projection matrix and the bias reach the launch as
  they were at the start, and all four arguments end unchanged.
-/
import proofs.«174443_j18794776887897_1_alg».proof.Proof.KernelValue

set_option maxRecDepth 16384

noncomputable section

namespace Cert.ChannelAttn.Run

open Cert.KernelIdeal Cert.KernelIdeal.Gen Idealize.ShloMosaic Idealize.ShloMosaic.TcCoe Idealize.SL.Sem
open Idealize.ShloMosaic.ValueIdx Idealize.ShloMosaic.StableHlo Cert.ChannelAttn
open Idealize.ShloMosaic.Pipeline (Dat)

variable (m : (ℓ : Loc nD τ sig) → Buf (Elt Ideal) ℓ) (ρ : Dev nD → PrngReg)

/-- The context with its two spatial axes merged, `[128, 256, 1024]`, from the argument as it was at the start. -/
def merged (c : Dev nD) : S128x256x1024.Idx → EReal :=
  shapeCast S128x256x1024 (m ((c : Thread nD τ).loc main_arg0)) shapeCasts_S128x16x16x1024_S128x256x1024

/-- The launch finds the context merged. -/
theorem ctxV_eq (c : Dev nD) : ctxV m c = merged m c := by
  show StableHlo.after hostOps0 (fun b => m (c, b)) (Proc.devRef .tc main_v0) = _
  after_results
  rfl

/-- The attended output `[128, 256, 1024]` of the arguments as they were at the start. -/
def outOfArgs (c : Dev nD) : S128x256x1024.Idx → EReal :=
  outArr (merged m c) (m ((c : Thread nD τ).loc main_arg1)) (m ((c : Thread nD τ).loc main_arg2))
    (m ((c : Thread nD τ).loc main_arg3))

/-- The attention weights `[128, 1024, 32]` of the arguments as they were at the start. -/
def attnOfArgs (c : Dev nD) : S128x1024x32.Idx → EReal :=
  attnArr (merged m c) (m ((c : Thread nD τ).loc main_arg1)) (m ((c : Thread nD τ).loc main_arg2))
    (m ((c : Thread nD τ).loc main_arg3))

theorem outG_eq (c : Dev nD) : outG m c = outOfArgs m c := by
  unfold outG outOfArgs
  rw [ctxV_eq]
  show outArr (merged m c) (V m c main_arg1) (V m c main_arg2) (V m c main_arg3) = _
  rw [V_main_arg1, V_main_arg2, V_main_arg3]

theorem attnG_eq (c : Dev nD) : attnG m c = attnOfArgs m c := by
  unfold attnG attnOfArgs
  rw [ctxV_eq]
  show attnArr (merged m c) (V m c main_arg1) (V m c main_arg2) (V m c main_arg3) = _
  rw [V_main_arg1, V_main_arg2, V_main_arg3]

/-- The line after the launch: the first result is the attended output's array with its merged axis split. -/
theorem tail_out (c : Dev nD) :
    Pipeline.afterTail₀ cfgs (dats m) 0 (V0 m) [hostOps1] c main_v2
      = shapeCast S128x16x16x1024 ((dats m 0 c).arrAt 4 cfg0.N) shapeCasts_S128x256x1024_S128x16x16x1024 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1_0)
      = (dats m 0 c).arrAt 4 cfg0.N :=
    Pipeline.withArrays_arr spec0 launch0.win.arr_inj c (V0 m c) (fun w => (dats m 0 c).arrAt w cfg0.N) 4
  rw [e]
  rfl

/-- Every weakly fair execution of the kernel's program terminates with the first result at the attended output, its merged
    axis split, the second at the attention weights, and the four arguments unchanged. -/
theorem run : θ_run defs (onTc (τ := τ) (main (F := Ideal))) ⟨m, fun _ => 0, ρ⟩ fun r => ∀ c : Dev nD,
      r.2.mem ((c.tc : Thread nD τ).loc main_v2)
        = shapeCast S128x16x16x1024 (outOfArgs m c) shapeCasts_S128x256x1024_S128x16x16x1024
      ∧ r.2.mem ((c.tc : Thread nD τ).loc main_v1_1) = attnOfArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans
        ((tail_out m c).trans (congrArg (fun a => shapeCast S128x16x16x1024 a shapeCasts_S128x256x1024_S128x16x16x1024)
          ((final_out m c).trans (outG_eq m c)))),
      ((h c).1 5).trans ((final_attn m c).trans (attnG_eq m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.ChannelAttn.Run

end
-- ==== Proof.RefPoint.lean ====
/-
  The reference's stages, read at an index over the extended reals, are the specification's functions.

  The reference is the batched form of the same mathematics: its contractions carry the batch axis along, its row maximum
  and row sum run over the last axis of `[128, 1024, 32]`. Read at `(n, ·, ·)` every stage depends on batch element `n` of
  the words and the context only, so each is the per-batch function of the specification at `n`.
-/
import proofs.«174443_j18794776887897_1_alg».proof.Proof.Gen.ReferenceIdeal.Read
import proofs.«174443_j18794776887897_1_alg».proof.Proof.Spec
import Idealize.ShloMosaic.PureOps.Ideal.Laws
import Idealize.ShloMosaic.PureOps.Reduce
import Idealize.ShloMosaic.Lib.ValueIdx

noncomputable section

namespace Cert.ChannelAttn.Ref

open Cert.ReferenceIdeal Cert.ReferenceIdeal.Gen Cert.ReferenceIdeal.Read Idealize.ShloMosaic Idealize.ShloMosaic.ValueIdx Cert.ChannelAttn

variable (x0 : (⟨S128x16x16x1024, .f32⟩ : BufTy).Contents (Elt Ideal)) (x1 : (⟨S128x32x256, .f32⟩ : BufTy).Contents (Elt Ideal))
  (x2 : (⟨S256x256, .f32⟩ : BufTy).Contents (Elt Ideal)) (x3 : (⟨S256, .f32⟩ : BufTy).Contents (Elt Ideal))

/-- The context as the reference's contractions see it: the argument with its two spatial axes merged. -/
abbrev ctx : (⟨S128x256x1024, .f32⟩ : BufTy).Contents (Elt Ideal) := val_main_v4 (F := Ideal) x0

/-- Batch element `n`'s logits, as the specification builds them from the reference's operands. -/
abbrev logits (n : Fin 128) : Fin 1024 → Fin 32 → EReal :=
  logit (ctxOf (ctx x0) n) (proj (wordsOf x1 n) (matOf x2) (biasOf x3))

/-- The projected words at `(n, s, i)`. -/
theorem proj_ref (n : Fin 128) (s : Fin 32) (i : Fin 256) :
    val_main_v3 (F := Ideal) x1 x2 x3 (ix3 n s i) = proj (wordsOf x1 n) (matOf x2) (biasOf x3) s i := by
  rw [val_main_v3_apply, val_main_v0_apply, val_main_v2_apply, val_main_v1_apply]
  unfold proj wordsOf matOf biasOf
  refine congrArg₂ (· + ·) (Finset.sum_congr rfl fun e _ => ?_) ?_
  · have hl : lidx_main_v0 (ix3 n s i) e = ix3 n s e :=
      funext fun a => Fin.ext (by match a with | ⟨0, _⟩ => rfl | ⟨1, _⟩ => rfl | ⟨2, _⟩ => rfl)
    have hr : ridx_main_v0 (ix3 n s i) e = ix2 e i :=
      funext fun a => Fin.ext (by match a with | ⟨0, _⟩ => rfl | ⟨1, _⟩ => rfl)
    rw [hl, hr]
  · have hb : idx_main_v1 (idx_main_v2 (ix3 n s i)) = ix1 i :=
      funext fun a => Fin.ext (by match a with | ⟨0, _⟩ => rfl)
    rw [hb]

/-- The logits at `(n, c, s)`. -/
theorem logit_ref (n : Fin 128) (c : Fin 1024) (s : Fin 32) :
    val_main_v5 (F := Ideal) x0 x1 x2 x3 (ix3 n c s) = logits x0 x1 x2 x3 n c s := by
  rw [val_main_v5_apply]
  unfold logits logit ctxOf
  refine Finset.sum_congr rfl fun p _ => ?_
  have hl : lidx_main_v5 (ix3 n c s) p = ix3 n p c :=
    funext fun a => Fin.ext (by match a with | ⟨0, _⟩ => rfl | ⟨1, _⟩ => rfl | ⟨2, _⟩ => rfl)
  have hr : ridx_main_v5 (ix3 n c s) p = ix3 n s p :=
    funext fun a => Fin.ext (by match a with | ⟨0, _⟩ => rfl | ⟨1, _⟩ => rfl | ⟨2, _⟩ => rfl)
  rw [hl, hr, proj_ref]

/-- The reduced axis's coordinate put back: row `(n, c)` with word `s` inserted is `(n, c, s)`. -/
theorem lift_row (h : S128x1024x32.Reduces [2] S128x1024) (n : Fin 128) (c : Fin 1024) (s : Fin 32) :
    h.lift (ix2 n c) s = ix3 n c s :=
  funext fun a => Fin.ext (by match a with | ⟨0, _⟩ => rfl | ⟨1, _⟩ => rfl | ⟨2, _⟩ => rfl)

/-- The row shift at `(n, c)`. -/
theorem rowmax_ref (n : Fin 128) (c : Fin 1024) :
    val_main_v8 (F := Ideal) x0 x1 x2 x3 (ix2 n c) = rowmax (logits x0 x1 x2 x3 n c) := by
  have h : S128x1024x32.Reduces [2] S128x1024 := by decide
  rw [val_main_v8_apply, val_main_v7_apply, val_main_cst_0_apply]
  unfold val_main_v6
  rw [Host.reduce_eq_fold_single FloatOps.maximumf _ _ reducesTo_S128x1024x32_S128x1024_d2 h h_S_ (ix2 n c)]
  have hf : (fun s : Fin 32 => val_main_v5 (F := Ideal) x0 x1 x2 x3 (h.lift (ix2 n c) s))
      = (fun s : Fin 32 => logits x0 x1 x2 x3 n c s) :=
    funext fun s => by rw [lift_row h n c s, logit_ref]
  show max (Ideal.ofBits .f32 0xFF800000#32) ((Finset.univ : Finset (Fin 32)).fold max (Ideal.ofBits .f32 0xFF800000#32)
      (fun s : Fin 32 => val_main_v5 (F := Ideal) x0 x1 x2 x3 (h.lift (ix2 n c) s))) = _
  rw [hf]
  rfl

/-- The shifted exponential at `(n, c, s)`. -/
theorem expo_ref (n : Fin 128) (c : Fin 1024) (s : Fin 32) :
    val_main_v12 (F := Ideal) x0 x1 x2 x3 (ix3 n c s) = expo (logits x0 x1 x2 x3 n) c s := by
  rw [val_main_v12_apply, val_main_v11_apply, val_main_v10_apply, val_main_v9_apply]
  have hi : idx_main_v9 (idx_main_v10 (ix3 n c s)) = ix2 n c :=
    funext fun a => Fin.ext (by match a with | ⟨0, _⟩ => rfl | ⟨1, _⟩ => rfl)
  rw [hi, rowmax_ref, logit_ref]
  rfl

/-- The attention weights at `(n, c, s)`. -/
theorem attn_ref (n : Fin 128) (c : Fin 1024) (s : Fin 32) :
    val_main_v16 (F := Ideal) x0 x1 x2 x3 (ix3 n c s) = attnAt (ctx x0) x1 x2 x3 n c s := by
  rw [val_main_v16_apply, val_main_v15_apply, val_main_v14_apply]
  have hi : idx_main_v14 (idx_main_v15 (ix3 n c s)) = ix2 n c :=
    funext fun a => Fin.ext (by match a with | ⟨0, _⟩ => rfl | ⟨1, _⟩ => rfl)
  rw [hi, val_main_v13_apply, val_main_cst_1_apply, expo_ref]
  have hs : ∀ k : Fin 32, val_main_v12 (F := Ideal) x0 x1 x2 x3 (idx_main_v13 (ix2 n c) k) = expo (logits x0 x1 x2 x3 n) c k := fun k => by
    have hk : idx_main_v13 (ix2 n c) k = ix3 n c k :=
      funext fun a => Fin.ext (by match a with | ⟨0, _⟩ => rfl | ⟨1, _⟩ => rfl | ⟨2, _⟩ => rfl)
    rw [hk, expo_ref]
  rw [Finset.sum_congr rfl fun k _ => hs k]
  show Ideal.div _ (Ideal.ofBits .f32 0x00000000#32 + _) = _
  rw [Ideal.ofBits_zero_f32, zero_add]
  rfl

/-- The attended output at `(n, p, c)`. -/
theorem out_ref (n : Fin 128) (p : Fin 256) (c : Fin 1024) :
    val_main_v17 (F := Ideal) x0 x1 x2 x3 (ix3 n p c) = outAt (ctx x0) x1 x2 x3 n p c := by
  rw [val_main_v17_apply]
  unfold outAt outOf outp
  refine Finset.sum_congr rfl fun s _ => ?_
  have hl : lidx_main_v17 (ix3 n p c) s = ix3 n s p :=
    funext fun a => Fin.ext (by match a with | ⟨0, _⟩ => rfl | ⟨1, _⟩ => rfl | ⟨2, _⟩ => rfl)
  have hr : ridx_main_v17 (ix3 n p c) s = ix3 n c s :=
    funext fun a => Fin.ext (by match a with | ⟨0, _⟩ => rfl | ⟨1, _⟩ => rfl | ⟨2, _⟩ => rfl)
  rw [hl, hr, proj_ref, attn_ref]
  rfl

/-- The reference's array of attention weights is the specification's. -/
theorem attn_arr : val_main_v16 (F := Ideal) x0 x1 x2 x3 = attnArr (ctx x0) x1 x2 x3 :=
  funext fun i => by
    obtain ⟨n, c, s, rfl⟩ : ∃ (n : Fin 128) (c : Fin 1024) (s : Fin 32), i = ix3 n c s := ⟨i 0, i 1, i 2, eq_ix3 i⟩
    rw [attn_ref, attnArr_ix3]

/-- The reference's attended output, before its spatial axes are split again, is the specification's. -/
theorem out_arr : val_main_v17 (F := Ideal) x0 x1 x2 x3 = outArr (ctx x0) x1 x2 x3 :=
  funext fun i => by
    obtain ⟨n, p, c, rfl⟩ : ∃ (n : Fin 128) (p : Fin 256) (c : Fin 1024), i = ix3 n p c := ⟨i 0, i 1, i 2, eq_ix3 i⟩
    rw [out_ref, outArr_ix3]

end Cert.ChannelAttn.Ref

end
-- ==== Proof.lean ====
/-
  The proof of `Cert.Claim`: a channel attention — a word projection, logits against the context, a softmax over the words and
  the attended output — computed per batch element by a kernel on a grid of 128 points, against its batched reference.

  Over the extended reals both programs compute, for every batch element `n`,
    `P[s, i] = (Σ_e w[n, s, e] · k[e, i]) + b[i]`,   `L[c, s] = Σ_p x[n, p, c] · P[s, p]`,
    `A[c, s] = exp(L[c, s] - M[c]) / Σ_s' exp(L[c, s'] - M[c])`  with  `M[c] = max(-∞, max_s L[c, s])`,
    `O[p, c] = Σ_s P[s, p] · A[c, s]`,
  where `x` is the context with its two spatial axes merged; the results are `O` with that axis split again, and `A`.
  The two programs apply the same operations to the same operands in the same order — the kernel to one batch element's
  blocks at a time, the reference to whole arrays with the batch axis carried along — so no law of arithmetic is needed
  beyond reading each contraction, row maximum and row sum at an index: the precondition is never opened.

  `Spec` states the mathematics; `BodyProj` and `BodyAttn` read the kernel body's values at an index; `KernelValue` goes from
  the blocks the 128 points write back to the two output arrays; `KernelRun` reads the lines around the launch; `RefPoint`
  reads the reference's stages at an index. Here the claims are assembled.
-/
import proofs.«174443_j18794776887897_1_alg».proof.Defs
import proofs.«174443_j18794776887897_1_alg».proof.Proof.Gen.Kernel
import proofs.«174443_j18794776887897_1_alg».proof.Proof.Gen.Kernel.Skeleton
import proofs.«174443_j18794776887897_1_alg».proof.Proof.Gen.Kernel.Launch
import proofs.«174443_j18794776887897_1_alg».proof.Proof.Gen.Kernel.Points
import proofs.«174443_j18794776887897_1_alg».proof.Proof.Gen.Kernel.Frame
import proofs.«174443_j18794776887897_1_alg».proof.Proof.Gen.KernelIdeal
import proofs.«174443_j18794776887897_1_alg».proof.Proof.Gen.KernelIdeal.Skeleton
import proofs.«174443_j18794776887897_1_alg».proof.Proof.Gen.KernelIdeal.Launch
import proofs.«174443_j18794776887897_1_alg».proof.Proof.Gen.KernelIdeal.Points
import proofs.«174443_j18794776887897_1_alg».proof.Proof.Gen.KernelIdeal.Frame
import proofs.«174443_j18794776887897_1_alg».proof.Proof.Gen.ReferenceIdeal
import proofs.«174443_j18794776887897_1_alg».proof.Proof.Gen.Pre_finite_inputs
import proofs.«174443_j18794776887897_1_alg».proof.Proof.Gen.ReferenceIdeal.Run
import proofs.«174443_j18794776887897_1_alg».proof.Proof.Gen.ReferenceIdeal.Read
import proofs.«174443_j18794776887897_1_alg».proof.Proof.KernelRun
import proofs.«174443_j18794776887897_1_alg».proof.Proof.RefPoint
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the four arguments, the kernel's first result is the attended output with its merged axis split
    and its second the attention weights (the kernel's run, read), and the reference's two results are the same two functions
    of its own arguments (its stages read at an index), which are the kernel's arguments. -/
theorem algebraic : Cert.algebraic_KernelIdeal_ReferenceIdeal := by
  intro m ρ m' ρ' _ hagree
  refine ⟨fun c => shapeCast Cert.KernelIdeal.S128x16x16x1024 (Cert.ChannelAttn.Run.outOfArgs m c)
      Cert.KernelIdeal.Facts₀.shapeCasts_S128x256x1024_S128x16x16x1024,
    fun c => Cert.ChannelAttn.Run.attnOfArgs m c, Cert.ChannelAttn.Run.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ((Cert.ReferenceIdeal.Read.val_main_v18_eq _ _ _ _).trans ?_),
    (h c).2.1.trans ((Cert.ReferenceIdeal.Read.val_main_v16_eq _ _ _ _).trans ?_), (h c).2.2⟩
  · unfold Cert.ReferenceIdeal.Read.val_main_v18
    rw [Cert.ChannelAttn.Ref.out_arr, a0, a1, a2, a3]
    rfl
  · rw [Cert.ChannelAttn.Ref.attn_arr, a0, a1, a2, a3]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
